-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8 : Shape := ⟨1, ![8]⟩
abbrev S8x2048x8192 : Shape := ⟨3, ![8, 2048, 8192]⟩
abbrev S8x8192x2048 : Shape := ⟨3, ![8, 8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192x2048 : S_.BroadcastsInDim S8x8192x2048 (![] : Fin 0 → Fin S8x8192x2048.rank)
  reducesTo_S8x8192x2048_S_d0_1_2 : S8x8192x2048.ReducesTo [0, 1, 2] S_

variable [Facts]

def fn {F : FTy → Type} [FloatOps F] (main_arg0 : FVec F S8192x2048 .f32) (main_arg1 : IVec S8 32) (main_arg2 : FVec F S8x2048x8192 .f32) (main_arg3 : FVec F S8x8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x8192 .f32 := Host.absf main_arg2
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192x2048 .f32 := Host.absf main_arg3
  let main_cst_2 : FVec F S_ .f32 := constant S_ .f32 0x7F800000#32
  let main_v10 : FVec F S8x8192x2048 .f32 := broadcastInDim S8x8192x2048 ![] bcast_S_S8x8192x2048 main_cst_2
  let main_v11 : IVec S8x8192x2048 1 := cmpf .olt main_v9 main_v10
  let main_c_3 : IVec S_ 1 := constantI S_ 1 1#1
  let main_v12 : IVec S_ 1 := (fun x v => Host.reduce IntOp.andi x v reducesTo_S8x8192x2048_S_d0_1_2 h_S_) main_v11 main_c_3
  let main_v13 : IVec S_ 1 := andi main_v8 main_v12
  main_v13
-- ==== Kernel.lean ====
abbrev S8192x2048 : Shape := ⟨2, ![8192, 2048]⟩
abbrev S8 : Shape := ⟨1, ![8]⟩
abbrev S8x2048x8192 : Shape := ⟨3, ![8, 2048, 8192]⟩
abbrev S8x8192x2048 : Shape := ⟨3, ![8, 8192, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x8192, .f32⟩
  | .hbm, ⟨3, _⟩ => ⟨S8x8192x2048, .f32⟩
  | .hbm, ⟨4, _⟩ => ⟨S8192x2048, .f32⟩
  | .local _ .vmem, ⟨0, _⟩ => ⟨S512x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512x2048, .f32⟩
  | .local _ .vmem, ⟨4, _⟩ => ⟨S1x512x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c15_i32 : BitVec 32 := 15#32
  let v32 : BitVec 1 := Scalar.cmpi .eq arg2 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

class Facts₀ : Prop where
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x8192.size a
  hwx0_1 : ∀ i : grid0.Coords, EltTy.bits .f32 = 32 ∨ (Rect.block (s := S8x2048x8192) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x8192x2048.size a
  hwx0_2 : ∀ i : grid0.Coords, EltTy.bits .f32 = 32 ∨ (Rect.block (s := S8x8192x2048) S1x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8 : Shape := ⟨1, ![8]⟩
abbrev S8x2048x8192 : Shape := ⟨3, ![8, 2048, 8192]⟩
abbrev S8x8192x2048 : Shape := ⟨3, ![8, 8192, 2048]⟩
abbrev S8x1024x2048 : Shape := ⟨3, ![8, 1024, 2048]⟩
abbrev S8x1024x8192 : Shape := ⟨3, ![8, 1024, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8, .i32⟩
  | .hbm, ⟨2, _⟩ => ⟨S8x2048x8192, .f32⟩
  | .hbm, ⟨3, _⟩ => ⟨S8x8192x2048, .f32⟩
  | .hbm, ⟨4, _⟩ => ⟨S8x1024x2048, .f32⟩
  | .hbm, ⟨5, _⟩ => ⟨S8x1024x8192, .f32⟩
  | .hbm, ⟨6, _⟩ => ⟨S8x1024x8192, .f32⟩
  | .hbm, ⟨7, _⟩ => ⟨S8x1024x8192, .f32⟩
  | .hbm, ⟨8, _⟩ => ⟨S_, .f32⟩
  | .hbm, ⟨9, _⟩ => ⟨S8x1024x8192, .f32⟩
  | .hbm, ⟨10, _⟩ => ⟨S8x1024x8192, .f32⟩
  | .hbm, ⟨11, _⟩ => ⟨S8x1024x8192, .f32⟩
  | .hbm, ⟨12, _⟩ => ⟨S_, .f32⟩
  | .hbm, ⟨13, _⟩ => ⟨S8x1024x8192, .f32⟩
  | .hbm, ⟨14, _⟩ => ⟨S8x1024x8192, .f32⟩
  | .hbm, ⟨15, _⟩ => ⟨S8x1024x8192, .f32⟩
  | .hbm, ⟨16, _⟩ => ⟨S_, .f32⟩
  | .hbm, ⟨17, _⟩ => ⟨S8x1024x8192, .f32⟩
  | .hbm, ⟨18, _⟩ => ⟨S8x1024x8192, .f32⟩
  | .hbm, ⟨19, _⟩ => ⟨S_, .f32⟩
  | .hbm, ⟨20, _⟩ => ⟨S8x1024x8192, .f32⟩
  | .hbm, ⟨21, _⟩ => ⟨S8x1024x8192, .f32⟩
  | .hbm, ⟨22, _⟩ => ⟨S8x1024x8192, .f32⟩
  | .hbm, ⟨23, _⟩ => ⟨S8x1024x2048, .f32⟩
  | .hbm, ⟨24, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  shapeCasts_S8192x2048_S8x1024x2048 : S8192x2048.ShapeCasts S8x1024x2048
  bcast_S_S8x1024x8192 : S_.BroadcastsInDim S8x1024x8192 (![] : Fin 0 → Fin S8x1024x8192.rank)
  shapeCasts_S8x1024x2048_S8192x2048 : S8x1024x2048.ShapeCasts S8192x2048
  dot_S8x1024x2048_S8x2048x8192_S8x1024x8192_2_1_1_2_0_0_wf : DotDims.WF S8x1024x2048 S8x2048x8192 S8x1024x8192 [2] [1] [1] [2] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.Pieces.lean ====
/-
  What one grid point's body leaves behind, as values.

  The body keeps a [512, 2048] accumulator across the sixteen hidden tiles of one block of token rows. At a point
  it (first tile only) overwrites the accumulator with zeros, then stores into it

      step x w₁ w₂ acc  =  acc + gelu (x · w₁) · w₂

  of the point's three input blocks and of what the accumulator held, and (last tile only) copies the accumulator
  to the output block. Each of these stores covers its whole buffer and each load reads a whole buffer, so what a
  buffer holds afterwards is the last store's value with the loads replaced by the buffers' contents:

      first tile :  accumulator = step x w₁ w₂ 0
      other tiles:  accumulator = step x w₁ w₂ (what the point before left)
      last tile  :  output block = the same value as the accumulator.

  Nothing here depends on the number format.
-/
import proofs.«149884_j29678224015412_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.ExpertFfn.Pieces

open Cert.KernelIdeal Cert.KernelIdeal.Gen

variable {F : FTy → Type} [FloatOps F]

/-- A rectangle at the origin of a rank-2 buffer. -/
theorem hz2 : (![0, 0] : Fin 2 → Nat) = fun _ => 0 := funext fun a => by fin_cases a <;> rfl
/-- A rectangle at the origin of a rank-3 buffer. -/
theorem hz3 : (![0, 0, 0] : Fin 3 → Nat) = fun _ => 0 := funext fun a => by fin_cases a <;> rfl

/-- A middle tile: one covering store of the step over what the accumulator held. -/
theorem scratch_B (c : Dev nD) (i : grid0.Coords) (a3 : Memref sig .tc .vmem S512x2048 .f32) (h3 : a3.IsWhole)
    (a4 : Memref sig .tc .vmem S1x2048x512 .f32) (h4 : a4.IsWhole) (a5 : Memref sig .tc .vmem S1x512x2048 .f32) (h5 : a5.IsWhole)
    (a6 : Memref sig .tc .vmem S512x2048 .f32) (h6 : a6.IsWhole) (a7 : Memref sig .tc .vmem S512x2048 .f32) (h7 : a7.IsWhole)
    (hc0 : ¬cond0_0 i) (hc1 : ¬cond0_1 i)
    (x0 : Vec F S512x2048 .f32) (x1 : Vec F S1x2048x512 .f32) (x2 : Vec F S1x512x2048 .f32) (xs0 : Vec F S512x2048 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero hz2]
  simp only [View.readAt_eq_ld, h3.read_unread, h4.read_unread, h5.read_unread, h7.read_unread,
    View.ld_unit_zero (S := S512x2048) hz2, View.ld_unit_zero (S := S1x2048x512) hz3, View.ld_unit_zero (S := S1x512x2048) hz3]

/-- The last tile leaves the accumulator at the same step; -/
theorem scratch_C (c : Dev nD) (i : grid0.Coords) (a3 : Memref sig .tc .vmem S512x2048 .f32) (h3 : a3.IsWhole)
    (a4 : Memref sig .tc .vmem S1x2048x512 .f32) (h4 : a4.IsWhole) (a5 : Memref sig .tc .vmem S1x512x2048 .f32) (h5 : a5.IsWhole)
    (a6 : Memref sig .tc .vmem S512x2048 .f32) (h6 : a6.IsWhole) (a7 : Memref sig .tc .vmem S512x2048 .f32) (h7 : a7.IsWhole)
    (hc0 : ¬cond0_0 i) (hc1 : cond0_1 i)
    (x0 : Vec F S512x2048 .f32) (x1 : Vec F S1x2048x512 .f32) (x2 : Vec F S1x512x2048 .f32) (xs0 : Vec F S512x2048 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz2]
  simp only [View.readAt_eq_ld, h3.read_unread, h4.read_unread, h5.read_unread, h7.read_unread,
    View.ld_unit_zero (S := S512x2048) hz2, View.ld_unit_zero (S := S1x2048x512) hz3, View.ld_unit_zero (S := S1x512x2048) hz3]

/-- and the output block at what it then reads back from the accumulator: the same value. -/
theorem out_C (c : Dev nD) (i : grid0.Coords) (a3 : Memref sig .tc .vmem S512x2048 .f32) (h3 : a3.IsWhole)
    (a4 : Memref sig .tc .vmem S1x2048x512 .f32) (h4 : a4.IsWhole) (a5 : Memref sig .tc .vmem S1x512x2048 .f32) (h5 : a5.IsWhole)
    (a6 : Memref sig .tc .vmem S512x2048 .f32) (h6 : a6.IsWhole) (a7 : Memref sig .tc .vmem S512x2048 .f32) (h7 : a7.IsWhole)
    (hc0 : ¬cond0_0 i) (hc1 : cond0_1 i)
    (x0 : Vec F S512x2048 .f32) (x1 : Vec F S1x2048x512 .f32) (x2 : Vec F S1x512x2048 .f32) (xs0 : Vec F S512x2048 .f32) :
    out0_C_3 c i a3 h3 a4 h4 a5 h5 a6 h6 a7 h7 hc0 hc1 x0 x1 x2 xs0 = k0_pay2 x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz2, View.readCov_unit_zero (S := S512x2048) _ hz2]
  simp only [View.readAt_eq_ld, h3.read_unread, h4.read_unread, h5.read_unread, h7.read_unread,
    View.ld_unit_zero (S := S512x2048) hz2, View.ld_unit_zero (S := S1x2048x512) hz3, View.ld_unit_zero (S := S1x512x2048) hz3]

/-- The first tile: the zeros are stored, read back, and the step is stored over them. -/
theorem scratch_A (c : Dev nD) (i : grid0.Coords) (a3 : Memref sig .tc .vmem S512x2048 .f32) (h3 : a3.IsWhole)
    (a4 : Memref sig .tc .vmem S1x2048x512 .f32) (h4 : a4.IsWhole) (a5 : Memref sig .tc .vmem S1x512x2048 .f32) (h5 : a5.IsWhole)
    (a6 : Memref sig .tc .vmem S512x2048 .f32) (h6 : a6.IsWhole) (a7 : Memref sig .tc .vmem S512x2048 .f32) (h7 : a7.IsWhole)
    (hc0 : cond0_0 i) (hc1 : ¬cond0_1 i)
    (x0 : Vec F S512x2048 .f32) (x1 : Vec F S1x2048x512 .f32) (x2 : Vec F S1x512x2048 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x2048) hz2, View.readCov_unit_zero (S := S512x2048) _ hz2]
  simp only [View.readAt_eq_ld, h3.read_unread, h4.read_unread, h5.read_unread, h7.read_unread,
    View.ld_unit_zero (S := S512x2048) hz2, View.ld_unit_zero (S := S1x2048x512) hz3, View.ld_unit_zero (S := S1x512x2048) hz3]

end Cert.ExpertFfn.Pieces

end
-- ==== Proof.Spec.lean ====
/-
  The function both programs compute.

  The 8192 token rows come sorted by expert, in eight consecutive slabs of 1024 rows; row `r` belongs to
  expert `r / 1024`. Each row goes through its expert's two-layer network:

    hidden r f = Σ_k x[r, k] · w1[e, k, f]                 (k < 2048, f < 8192, e = r / 1024)
    out r d    = Σ_f gelu (hidden r f) · w2[e, f, d]       (d < 2048)

  with `gelu h = h · (1/2 · (1 + tanh (c₂ · (h + c₁ · h³))))`, the tanh form; `c₁`, `c₂`, `1/2` and `1` are kept as
  the binary32 words both programs spell, so no word is ever evaluated. Everything is read on the extended
  reals, where `+` and `·` are commutative and associative (which is all the two arrangements of these sums
  need: no distributivity, no cancelling, hence no finiteness).
-/
import Idealize.ShloMosaic.PureOps.Ideal
import Idealize.ShloMosaic.Lib.ValueIdx

noncomputable section

namespace Cert.ExpertFfn

open Idealize.ShloMosaic Idealize.ShloMosaic.ValueIdx

/-- The tanh form of GELU on an extended real, the cube spelled `h · (h · h)`. -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The cube spelled `(h · h) · h` gives the same value: multiplication of extended reals is commutative. -/
theorem gelu_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h))))) = gelu h := by
  unfold gelu; rw [mul_comm (h * h) h]

/-- Token rows by model width. -/
abbrev SX : Shape := ⟨2, ![8192, 2048]⟩
/-- Expert by model width by hidden width. -/
abbrev SW1 : Shape := ⟨3, ![8, 2048, 8192]⟩
/-- Expert by hidden width by model width. -/
abbrev SW2 : Shape := ⟨3, ![8, 8192, 2048]⟩

/-- The expert of a token row: rows come in eight slabs of 1024. -/
def slab (r : Fin 8192) : Fin 8 := ⟨r.val / 1024, by have := r.isLt; omega⟩

/-- The up-projection of row `r` at hidden unit `f`, before the activation. -/
def hidden (x : SX.Idx → EReal) (w1 : SW1.Idx → EReal) (r : Fin 8192) (f : Fin 8192) : EReal :=
  ∑ k : Fin 2048, x (ix2 r k) * w1 (ix3 (slab r) k f)

/-- The whole result array as one function of the three argument arrays. -/
def G (x : SX.Idx → EReal) (w1 : SW1.Idx → EReal) (w2 : SW2.Idx → EReal) : SX.Idx → EReal := fun i =>
  ∑ f : Fin 8192, gelu (hidden x w1 (i 0) f) * w2 (ix3 (slab (i 0)) f (i 1))

theorem G_apply (x : SX.Idx → EReal) (w1 : SW1.Idx → EReal) (w2 : SW2.Idx → EReal) (r : Fin 8192) (d : Fin 2048) :
    G x w1 w2 (ix2 r d) = ∑ f : Fin 8192, gelu (hidden x w1 r f) * w2 (ix3 (slab r) f d) := rfl

end Cert.ExpertFfn

end
-- ==== Proof.LibMatmulSum.lean ====
/-
  A plain matrix product read at an index, at the ideal values.

  For dimension numbers that contract the left operand's axis 1 with the right operand's axis 0, with no batch axis — an
  [M, K] by [K, N] product into [M, N] — the operand indices at result index `j` and contraction index `q` are
  (j 0, q) and (q, j 1). So a `tpu.matmul` into a zero accumulator and the host's `dot_general` are, at every result
  index, the same sum over `k : Fin K` of `l (j 0, k) * r (k, j 1)` on the extended reals: no rounding, no order, and the
  change of float format on the way in is the identity.
-/
import Idealize.ShloMosaic.PureOps.Ideal.Laws
import Idealize.ShloMosaic.Lib.ValueIdx

noncomputable section

namespace Idealize.ShloMosaic.MatmulSum

open Idealize.ShloMosaic Idealize.ShloMosaic.ValueIdx

variable {M K N : Nat} (d : DotDims ⟨2, ![M, K]⟩ ⟨2, ![K, N]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Column coordinate of the right operand's index: the result's column. -/
theorem rhsIdx_col (hln : d.lhsNonContracting = [0]) (hrn : d.rhsNonContracting = [1]) (hlb : d.lhsBatch = [])
    (hrb : d.rhsBatch = []) (j : (⟨2, ![M, N]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum of a plain product, re-indexed over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 k (j 1) :=
    funext fun a => Fin.ext (by
      match a with
      | ⟨0, _⟩ => exact (d.rhsIdx_val_of_single hrc _ _).trans hk
      | ⟨1, _⟩ => exact rhsIdx_col d hln hrn hlb hrb _ _)
  exact congrArg₂ (fun a b => l a * r b) el er

/-- A `tpu.matmul` of a plain product into the zero splat, at an index: the sum of products over the shared axis. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (j : (⟨2, ![M, N]⟩ : Shape).Idx) :
    FloatOps.matmul d prec l r (constant ⟨2, ![M, N]⟩ .f32 0x00000000#32) j = ∑ k : Fin K, l (ix2 (j 0) k) * r (ix2 k (j 1)) :=
  (Ideal.matmul_constant_zero_apply d prec l r j).trans (sum_contr d hlc hrc hln hrn hlb hrb l r j)

/-- The host's `dot_general` of a plain product, at an index: the same sum. -/
theorem dotGeneral_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) :=
  (Ideal.dotGeneral_apply d prec sched l r j).trans (sum_contr d hlc hrc hln hrn hlb hrb l r j)

end Idealize.ShloMosaic.MatmulSum

end
-- ==== Proof.Payload.lean ====
/-
  The two values the kernel body stores, read at one index on the extended reals.

  At one grid point the body holds a block `x0` of 512 token rows by 2048 model columns, one expert's tile `x1` of the
  first weight (2048 model columns by 512 hidden units, under a unit expert axis), the matching tile `x2` of the second
  weight (512 hidden units by 2048 model columns, under a unit expert axis) and the running result `acc`. It stores

    acc[p, q] + Σ_f gelu (Σ_k x0[p, k] · x1[0, k, f]) · x2[0, f, q]          (k < 2048, f < 512)

  and, at the first tile, resets the running result to zero. On the extended reals the changes of float format are the
  identity, a product into a zero accumulator is the bare sum of products, and the elementwise chain between the two
  products is the tanh form of GELU term by term.
-/
import proofs.«149884_j29678224015412_1_alg».proof.Proof.Gen.KernelIdeal.Skeleton
import proofs.«149884_j29678224015412_1_alg».proof.Proof.Spec
import proofs.«149884_j29678224015412_1_alg».proof.Proof.LibMatmulSum
import Idealize.ShloMosaic.Lib.ValueIdx
import Idealize.ShloMosaic.Lib.ValueLayout
import Idealize.ShloMosaic.Lib.Pipeline.Value
import Idealize.ShloMosaic.PureOps.Ideal.Laws

noncomputable section

namespace Cert.ExpertFfn.Payload

open Idealize.ShloMosaic Idealize.ShloMosaic.ValueIdx Cert.KernelIdeal Cert.KernelIdeal.Gen Cert.ExpertFfn

/-- The value the running result is reset to is zero everywhere: a splat of the zero word, through a cast to its own
    shape. -/
theorem pay1_apply (i : S512x2048.Idx) : k0_pay1 (F := Ideal) i = 0 := by
  unfold k0_pay1
  rw [shapeCast_self]
  exact Ideal.ofBits_zero_f32

/-- The first product at `(p, f)`: the token row against the hidden unit's weight column. The narrowing format changes
    are the identity, dropping the weight tile's unit axis reads `(0, k, f)` at `(k, f)`, and a product into the zero
    accumulator is the sum of products over the shared axis. -/
theorem up_apply (x0 : Vec Ideal S512x2048 .f32) (x1 : Vec Ideal S1x2048x512 .f32) (p : Fin 512) (f : Fin 512) :
    matmul (F := Ideal) dot_S512x2048_S2048x512_S512x512_1_0_0_1_n_n none (truncf .bf16 x0 bitsLt_bf16_f32)
        (truncf .bf16 (shapeCast S2048x512 x1 shapeCasts_S1x2048x512_S2048x512) bitsLt_bf16_f32)
        (constant S512x512 .f32 0x00000000#32) (ix2 p f)
      = ∑ k : Fin 2048, x0 (ix2 p k) * x1 (ix3 (0 : Fin 1) k f) := by
  refine (MatmulSum.matmul_zero_apply _ rfl rfl rfl rfl rfl rfl none _ _ _).trans ?_
  refine Finset.sum_congr rfl fun k _ => ?_
  exact congrArg (x0 (ix2 p k) * ·) (shapeCast_1ab_ab_apply x1 _ k f)

/-- The elementwise chain between the two products, at an index, is the tanh form of GELU of the element: each
    vector operation reads through to the extended reals' operation and each broadcast constant to its word. -/
theorem gelu_chain_apply (h : FVec Ideal S512x512 .f32) (j : S512x512.Idx) :
    mulf h (mulf (broadcast S512x512 (Scalar.ofBits (F := Ideal) .f32 0x3F000000#32))
      (addf (broadcast S512x512 (Scalar.ofBits (F := Ideal) .f32 0x3F800000#32))
        (tanh (mulf (broadcast S512x512 (Scalar.ofBits (F := Ideal) .f32 0x3F4C422A#32))
          (addf h (mulf (broadcast S512x512 (Scalar.ofBits (F := Ideal) .f32 0x3D372713#32)) (mulf h (mulf h h)))))))) j
      = gelu (h j) := rfl

/-- The second product at `(p, q)`, for any left operand `g`: the row of `g` against the second weight's column. -/
theorem down_apply (g : FVec Ideal S512x512 .f32) (x2 : Vec Ideal S1x512x2048 .f32) (p : Fin 512) (q : Fin 2048) :
    matmul (F := Ideal) dot_S512x512_S512x2048_S512x2048_1_0_0_1_n_n none (truncf .bf16 g bitsLt_bf16_f32)
        (truncf .bf16 (shapeCast S512x2048 x2 shapeCasts_S1x512x2048_S512x2048) bitsLt_bf16_f32)
        (constant S512x2048 .f32 0x00000000#32) (ix2 p q)
      = ∑ f : Fin 512, g (ix2 p f) * x2 (ix3 (0 : Fin 1) f q) := by
  refine (MatmulSum.matmul_zero_apply _ rfl rfl rfl rfl rfl rfl none _ _ _).trans ?_
  refine Finset.sum_congr rfl fun f _ => ?_
  exact congrArg (g (ix2 p f) * ·) (shapeCast_1ab_ab_apply x2 _ f q)

/-- The stored value at `(p, q)`: the running result there plus the sum over the tile's hidden units of GELU of the
    up-projection times the second weight. -/
theorem pay2_apply (x0 : Vec Ideal S512x2048 .f32) (x1 : Vec Ideal S1x2048x512 .f32) (x2 : Vec Ideal S1x512x2048 .f32)
    (acc : Vec Ideal S512x2048 .f32) (p : Fin 512) (q : Fin 2048) :
    k0_pay2 (F := Ideal) x0 x1 x2 acc (ix2 p q)
      = acc (ix2 p q) + ∑ f : Fin 512, gelu (∑ k : Fin 2048, x0 (ix2 p k) * x1 (ix3 (0 : Fin 1) k f)) * x2 (ix3 (0 : Fin 1) f q) := by
  unfold k0_pay2
  rw [shapeCast_self]
  refine congrArg (acc (ix2 p q) + ·) ?_
  refine (down_apply _ x2 p q).trans ?_
  refine Finset.sum_congr rfl fun f _ => ?_
  refine congrArg (· * x2 (ix3 (0 : Fin 1) f q)) ?_
  refine (gelu_chain_apply _ (ix2 p f)).trans ?_
  exact congrArg gelu (up_apply x0 x1 p f)

end Cert.ExpertFfn.Payload

end
-- ==== Proof.Blocks.lean ====
/-
  Which entries of the argument arrays a grid point's input blocks hold.

  The grid is 8 experts × 2 blocks of 512 token rows × 16 tiles of 512 hidden units, walked in row-major order, so
  point `n` (`n < 256`) works on row block `n / 16` (rows `(n / 16) · 512 + p`, `p < 512`; their expert is
  `n / 32`) and on hidden tile `n % 16` (hidden units `(n % 16) · 512 + f`, `f < 512`). Its three input blocks are

    x-block  [512, 2048]    : entry (p, k)    is  x [(n / 16) · 512 + p, k]
    w₁-block [1, 2048, 512] : entry (0, k, f) is  w₁[n / 32, k, (n % 16) · 512 + f]
    w₂-block [1, 512, 2048] : entry (0, f, q) is  w₂[n / 32, (n % 16) · 512 + f, q]

  (a block's coordinate along an axis is the block index times the block's extent plus the coordinate inside).
  The row, hidden unit and expert are written with a `% 16` / `% 8` so that they are defined for every natural
  `n`; below 256 the reduction does nothing.
-/
import proofs.«149884_j29678224015412_1_alg».proof.Proof.Gen.KernelIdeal.Frame
import proofs.«149884_j29678224015412_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ExpertFfn.Blocks

open Cert.KernelIdeal Cert.KernelIdeal.Gen Cert.ExpertFfn

/-- The token row that entry `p` of point `n`'s row block is. -/
def rowOf (n : Nat) (p : Fin 512) : Fin 8192 := ⟨n / 16 % 16 * 512 + p.val, by have := p.isLt; omega⟩
/-- The hidden unit that entry `f` of point `n`'s hidden tile is. -/
def hidOf (n : Nat) (f : Fin 512) : Fin 8192 := ⟨n % 16 * 512 + f.val, by have := f.isLt; omega⟩
/-- The expert point `n` works for. -/
def expOf (n : Nat) : Fin 8 := ⟨n / 32 % 8, by omega⟩

/-- Every row of point `n`'s row block belongs to point `n`'s expert: two row blocks make one slab of 1024 rows. -/
theorem slab_rowOf (n : Nat) (p : Fin 512) : slab (rowOf n p) = expOf n :=
  Fin.ext (by have := p.isLt; show (n / 16 % 16 * 512 + p.val) / 1024 = n / 32 % 8; omega)

variable {F : FTy → Type} [FloatOps F]
variable (m : (ℓ : Loc nD τ sig) → Buf (Elt F) ℓ)

/-- The four windows' block indices at every grid point, decided once over the 256 points. -/
theorem idx_facts : ∀ t : Fin cfg0.N,
    win0_0.index t (0 : Fin 2) = t.val / 16 ∧ win0_0.index t (1 : Fin 2) = 0
    ∧ win0_1.index t (0 : Fin 3) = t.val / 32 ∧ win0_1.index t (1 : Fin 3) = 0 ∧ win0_1.index t (2 : Fin 3) = t.val % 16
    ∧ win0_2.index t (0 : Fin 3) = t.val / 32 ∧ win0_2.index t (1 : Fin 3) = t.val % 16 ∧ win0_2.index t (2 : Fin 3) = 0
    ∧ win0_3.index t (0 : Fin 2) = t.val / 16 ∧ win0_3.index t (1 : Fin 2) = 0 :=
  (by decide +kernel : ∀ t : Fin grid0.N, _)

theorem lt256 (t : Fin cfg0.N) : t.val < 256 := lt_of_lt_of_eq t.isLt (show cfg0.N = 256 from N_0)

/-- The x-block of a point. -/
theorem iblk0_apply (c : Dev nD) (t : Fin cfg0.N) (p : Fin 512) (k : Fin 2048) :
    (iblk m c 0 t : Vec F S512x2048 .f32) (ix2 p k) = m ((c : Thread nD τ).loc main_arg0) (ix2 (rowOf t.val p) k) := by
  have hi := idx_facts t
  have hN := lt256 t
  unfold iblk
  rw [View.read_apply]
  show V m c main_arg0 _ = m (c.tc.loc main_arg0) _
  unfold V
  congr 1
  funext a
  apply Fin.ext
  match a with
  | ⟨0, _⟩ => show win0_0.index t 0 * 512 + 1 * p.val = t.val / 16 % 16 * 512 + p.val; rw [hi.1]; omega
  | ⟨1, _⟩ => show win0_0.index t 1 * 2048 + 1 * k.val = k.val; rw [hi.2.1]; omega

/-- The w₁-block of a point. -/
theorem iblk1_apply (c : Dev nD) (t : Fin cfg0.N) (k : Fin 2048) (f : Fin 512) :
    (iblk m c 1 t : Vec F S1x2048x512 .f32) (ix3 (0 : Fin 1) k f)
      = m ((c : Thread nD τ).loc main_arg2) (ix3 (expOf t.val) k (hidOf t.val f)) := by
  have hi := idx_facts t
  have hN := lt256 t
  unfold iblk
  rw [View.read_apply]
  show V m c main_arg2 _ = m (c.tc.loc main_arg2) _
  unfold V
  congr 1
  funext a
  apply Fin.ext
  match a with
  | ⟨0, _⟩ => show win0_1.index t 0 * 1 + 1 * 0 = t.val / 32 % 8; rw [hi.2.2.1]; omega
  | ⟨1, _⟩ => show win0_1.index t 1 * 2048 + 1 * k.val = k.val; rw [hi.2.2.2.1]; omega
  | ⟨2, _⟩ => show win0_1.index t 2 * 512 + 1 * f.val = t.val % 16 * 512 + f.val; rw [hi.2.2.2.2.1]; omega

/-- The w₂-block of a point. -/
theorem iblk2_apply (c : Dev nD) (t : Fin cfg0.N) (f : Fin 512) (q : Fin 2048) :
    (iblk m c 2 t : Vec F S1x512x2048 .f32) (ix3 (0 : Fin 1) f q)
      = m ((c : Thread nD τ).loc main_arg3) (ix3 (expOf t.val) (hidOf t.val f) q) := by
  have hi := idx_facts t
  have hN := lt256 t
  unfold iblk
  rw [View.read_apply]
  show V m c main_arg3 _ = m (c.tc.loc main_arg3) _
  unfold V
  congr 1
  funext a
  apply Fin.ext
  match a with
  | ⟨0, _⟩ => show win0_2.index t 0 * 1 + 1 * 0 = t.val / 32 % 8; rw [hi.2.2.2.2.2.1]; omega
  | ⟨1, _⟩ => show win0_2.index t 1 * 512 + 1 * f.val = t.val % 16 * 512 + f.val; rw [hi.2.2.2.2.2.2.1]; omega
  | ⟨2, _⟩ => show win0_2.index t 2 * 2048 + 1 * q.val = q.val; rw [hi.2.2.2.2.2.2.2.1]; omega

end Cert.ExpertFfn.Blocks

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.Tiles.lean ====
/-
  The specification, regrouped by hidden tile.

  The 8192 hidden units are 16 tiles of 512 consecutive units; unit `f` of tile `s` is `s · 512 + f`. A sum of
  extended reals over all hidden units is the sum over the tiles of each tile's own sum — addition of extended
  reals is commutative and associative, and nothing else is used. So a row's result is the sum of sixteen tile
  terms, each the part of the down-projection that one tile of hidden units contributes.
-/
import proofs.«149884_j29678224015412_1_alg».proof.Proof.Spec
import proofs.«149884_j29678224015412_1_alg».proof.Proof.LibSumTiles

noncomputable section

namespace Cert.ExpertFfn

open Idealize.ShloMosaic Idealize.ShloMosaic.ValueIdx

/-- Hidden unit `f` of tile `s`. -/
def tileHid (s : Fin 16) (f : Fin 512) : Fin 8192 :=
  ⟨s.val * 512 + f.val, Cert.LibSumTiles.tile_lt (n := 16) (b := 512) s f⟩

/-- What hidden tile `s` contributes to row `R`'s result at column `q`. -/
def tileTerm (x : SX.Idx → EReal) (w1 : SW1.Idx → EReal) (w2 : SW2.Idx → EReal) (R : Fin 8192) (s : Fin 16)
    (q : Fin 2048) : EReal :=
  ∑ f : Fin 512, gelu (hidden x w1 R (tileHid s f)) * w2 (ix3 (slab R) (tileHid s f) q)

/-- A row's result is the sum of its sixteen tile terms. -/
theorem G_tiles (x : SX.Idx → EReal) (w1 : SW1.Idx → EReal) (w2 : SW2.Idx → EReal) (R : Fin 8192) (q : Fin 2048) :
    G x w1 w2 (ix2 R q) = ∑ s : Fin 16, tileTerm x w1 w2 R s q := by
  rw [G_apply, Cert.LibSumTiles.sum_tiles_16_512]
  rfl

end Cert.ExpertFfn

end
-- ==== Proof.Fold.lean ====
/-
  The accumulator across the sixteen hidden tiles of a row block.

  Points `16 · b … 16 · b + 15` are the sixteen hidden tiles of row block `b`, in order. At the first the
  accumulator is reset and receives tile 0's term; each later point adds its own tile's term to what the point
  before left. So after tile `j` the accumulator holds, at row `p` and column `q`,

      0 + Σ_{s ≤ j} (tile s's contribution to row (16 · b … block's row p) at column q),

  and after the last tile — where the body also copies the accumulator to the output block — that is the sum of
  all sixteen tile terms, the specification's value at that row and column.
-/
import proofs.«149884_j29678224015412_1_alg».proof.Proof.Gen.KernelIdeal.Value
import proofs.«149884_j29678224015412_1_alg».proof.Proof.Pieces
import proofs.«149884_j29678224015412_1_alg».proof.Proof.Payload
import proofs.«149884_j29678224015412_1_alg».proof.Proof.Blocks
import proofs.«149884_j29678224015412_1_alg».proof.Proof.Tiles
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ExpertFfn.Fold

open Cert.KernelIdeal Cert.KernelIdeal.Gen Cert.KernelIdeal.Value Cert.ExpertFfn Cert.ExpertFfn.Blocks

variable (m : (ℓ : Loc nD τ sig) → Buf (Elt Ideal) ℓ)

/-- The hidden tile of point `n`. -/
def tileOf (n : Nat) : Fin 16 := ⟨n % 16, Nat.mod_lt _ (by decide)⟩

theorem hidOf_eq (n : Nat) (f : Fin 512) : hidOf n f = tileHid (tileOf n) f := rfl

/-- What point `n` adds to the accumulator: at entry `(p, q)` of the block, its hidden tile's term for the token
    row that entry `p` is, read off the argument arrays as launched. -/
def addend (c : Dev nD) (n : Nat) : Vec Ideal S512x2048 .f32 := fun i =>
  tileTerm (m ((c : Thread nD τ).loc main_arg0)) (m ((c : Thread nD τ).loc main_arg2)) (m ((c : Thread nD τ).loc main_arg3))
    (rowOf n (i 0)) (tileOf n) (i 1)

/-- One point's step on its three input blocks: what the accumulator held, plus the point's addend. -/
theorem step_apply (c : Dev nD) (t : Fin cfg0.N) (acc : Vec Ideal S512x2048 .f32) (i : S512x2048.Idx) :
    k0_pay2 (F := Ideal) (iblk m c 0 t) (iblk m c 1 t) (iblk m c 2 t) acc i = acc i + addend m c t.val i := by
  obtain ⟨p, q, rfl⟩ : ∃ (p : Fin 512) (q : Fin 2048), i = ix2 p q := ⟨i 0, i 1, eq_ix2 i⟩
  refine (Payload.pay2_apply (iblk m c 0 t) (iblk m c 1 t) (iblk m c 2 t) acc p q).trans ?_
  refine congrArg (acc (ix2 p q) + ·) ?_
  show _ = tileTerm _ _ _ (rowOf t.val p) (tileOf t.val) q
  unfold tileTerm
  refine Finset.sum_congr rfl fun f _ => ?_
  refine congrArg₂ (fun a b => gelu a * b) ?_ ?_
  · unfold hidden
    refine Finset.sum_congr rfl fun k _ => ?_
    rw [iblk0_apply, iblk1_apply, slab_rowOf, hidOf_eq]
  · rw [iblk2_apply, slab_rowOf, hidOf_eq]

/-- The accumulator after point `t`: zero plus the addends of its run's points so far. -/
theorem scratch_apply (c : Dev nD) (t : Fin cfg0.N) (i : S512x2048.Idx) :
    (outsAt0 m c t.val t.isLt).2 i
      = 0 + ∑ s ∈ Finset.range (t.val % 16 + 1), addend m c (16 * (t.val / 16) + s) i := by
  have hN := lt256 t
  rw [soutsAt0_0_eq m c t]
  refine Pipeline.accAt_add_apply (fun n h => scAt0_0 m c n h (VS0_0.read (Elt Ideal) VS0_0.junk)) (scAt0_0 m c)
    (fun _ => 0) (addend m c) (16 * (t.val / 16)) 15 ?ha ?hg (t.val % 16) (by omega) _ i
  case ha =>
    intro h i
    have h0 : 16 * (t.val / 16) % 16 = 0 := Nat.mul_mod_right _ _
    have h1 : ¬16 * (t.val / 16) % 16 = 15 := by omega
    show scAt0_0 m c (16 * (t.val / 16)) h _ i = _
    unfold scAt0_0
    rw [dif_pos h0, dif_neg h1, Pieces.scratch_A]
    rw [step_apply m c ⟨16 * (t.val / 16), h⟩ (k0_pay1 (F := Ideal)) i, Payload.pay1_apply]
  case hg =>
    intro n h acc i hlo hhi
    have h0 : ¬n % 16 = 0 := by omega
    unfold scAt0_0
    by_cases h1 : n % 16 = 15
    · rw [dif_neg h0, dif_pos h1, Pieces.scratch_C]
      exact step_apply m c ⟨n, h⟩ acc i
    · rw [dif_neg h0, dif_neg h1, Pieces.scratch_B]
      exact step_apply m c ⟨n, h⟩ acc i

/-- At a last tile the output block is what the accumulator ends with. -/
theorem out_eq_scratch (c : Dev nD) (t : Fin cfg0.N) (h1 : t.val % 16 = 15) :
    (outsAt0 m c t.val t.isLt).1 = (outsAt0 m c t.val t.isLt).2 := by
  have h0 : ¬t.val % 16 = 0 := by omega
  rw [outsAt0_C m c t h0 h1]
  dsimp only
  rw [Pieces.out_C, Pieces.scratch_C]

/-- So at a last tile the output block holds the specification's values of its rows. -/
theorem out_apply (c : Dev nD) (t : Fin cfg0.N) (h1 : t.val % 16 = 15) (p : Fin 512) (q : Fin 2048) :
    (outsAt0 m c t.val t.isLt).1 (ix2 p q)
      = G (m ((c : Thread nD τ).loc main_arg0)) (m ((c : Thread nD τ).loc main_arg2)) (m ((c : Thread nD τ).loc main_arg3))
          (ix2 (rowOf t.val p) q) := by
  rw [out_eq_scratch m c t h1, scratch_apply, h1, G_tiles, zero_add, Finset.sum_range]
  refine Finset.sum_congr rfl fun s _ => ?_
  show tileTerm _ _ _ (rowOf (16 * (t.val / 16) + s.val) p) (tileOf (16 * (t.val / 16) + s.val)) q = _
  have er : rowOf (16 * (t.val / 16) + s.val) p = rowOf t.val p :=
    Fin.ext (by have := s.isLt; show (16 * (t.val / 16) + s.val) / 16 % 16 * 512 + p.val = t.val / 16 % 16 * 512 + p.val; omega)
  have es : tileOf (16 * (t.val / 16) + s.val) = s :=
    Fin.ext (by have := s.isLt; show (16 * (t.val / 16) + s.val) % 16 = s.val; omega)
  rw [er, es]

end Cert.ExpertFfn.Fold

end
-- ==== Proof.Final.lean ====
/-
  From the sixteen output blocks to the whole result array.

  The output's block `b` (512 rows) is written back once, after the last hidden tile of row block `b`, i.e. at
  point `16 · b + 15`; what is written there is the specification's values of rows `512 · b … 512 · b + 511`. Row
  `r` of the array lies in block `r / 512`, so the sixteen write-backs cover the array and it ends holding the
  specification's function of the three argument arrays as launched; the arguments themselves are never written.
-/
import proofs.«149884_j29678224015412_1_alg».proof.Proof.Gen.KernelIdeal.Value
import proofs.«149884_j29678224015412_1_alg».proof.Proof.Fold
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.ExpertFfn.Final

open Cert.KernelIdeal Cert.KernelIdeal.Gen Cert.KernelIdeal.Value Cert.ExpertFfn Cert.ExpertFfn.Blocks

variable (m : (ℓ : Loc nD τ sig) → Buf (Elt Ideal) ℓ) (ρ : Dev nD → PrngReg)

/-- The specification's function of the argument arrays as core `c` finds them at launch. -/
abbrev result (c : Dev nD) : Buf (Elt Ideal) ((c : Thread nD τ).loc main_v0) :=
  G (m ((c : Thread nD τ).loc main_arg0)) (m ((c : Thread nD τ).loc main_arg2)) (m ((c : Thread nD τ).loc main_arg3))

/-- At a last tile the whole output block, as one function of the position inside the block. -/
theorem out_fun (c : Dev nD) (t : Fin cfg0.N) (h1 : t.val % 16 = 15) :
    (outsAt0 m c t.val t.isLt).1 = fun j : S512x2048.Idx => result m c (ix2 (rowOf t.val (j 0)) (j 1)) := by
  funext j
  obtain ⟨p, q, rfl⟩ : ∃ (p : Fin 512) (q : Fin 2048), j = ix2 p q := ⟨j 0, j 1, eq_ix2 j⟩
  exact Fold.out_apply m c t h1 p q

/-- What a write-back writes is the specification read through the point's block: position `(p, q)` of block
    `t / 16` is row `(t / 16) · 512 + p`, column `q`. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have hi := idx_facts t
  have hN := lt256 t
  rw [flushed3, out_fun m c t h1]
  funext j
  show result m c (ix2 (rowOf t.val (j 0)) (j 1)) = result m c (((cfg0.win 3).blk t).view.emb j)
  congr 1
  funext a
  apply Fin.ext
  match a with
  | ⟨0, _⟩ => show t.val / 16 % 16 * 512 + (j 0).val = win0_3.index t (0 : Fin 2) * 512 + 1 * (j 0).val; rw [hi.2.2.2.2.2.2.2.2.1]; omega
  | ⟨1, _⟩ => show (j 1).val = win0_3.index t (1 : Fin 2) * 2048 + 1 * (j 1).val; rw [hi.2.2.2.2.2.2.2.2.2]; omega

/-- An index of the array is in point `t`'s output block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v0).slice (win0_3.rect t)).set ↔ _
  rw [View.set_slice_whole, Rect.mem_set_unit]
  exact Iff.rfl

/-- Every index of the array is in the block some write-back writes: row `r` in that of point `16 · (r / 512) + 15`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hlt : 16 * ((i 0).val / 512) + 15 < cfg0.N := by rw [show cfg0.N = 256 from N_0]; omega
  refine ⟨⟨16 * ((i 0).val / 512) + 15, hlt⟩, (flush0_3 _).mpr (by show (16 * ((i 0).val / 512) + 15) % 16 = 15; omega), ?_⟩
  rw [mem_blk]
  obtain ⟨-, -, -, -, -, -, -, -, e0, e1⟩ := idx_facts ⟨16 * ((i 0).val / 512) + 15, hlt⟩
  have e0' : win0_3.index ⟨16 * ((i 0).val / 512) + 15, hlt⟩ (0 : Fin 2) = (16 * ((i 0).val / 512) + 15) / 16 := e0
  intro a
  match a with
  | ⟨0, _⟩ => show win0_3.index ⟨16 * ((i 0).val / 512) + 15, hlt⟩ (0 : Fin 2) * 512 ≤ (i 0).val ∧ (i 0).val < win0_3.index ⟨16 * ((i 0).val / 512) + 15, hlt⟩ (0 : Fin 2) * 512 + 512; rw [e0']; omega
  | ⟨1, _⟩ => show win0_3.index ⟨16 * ((i 0).val / 512) + 15, hlt⟩ (1 : Fin 2) * 2048 ≤ (i 1).val ∧ (i 1).val < win0_3.index ⟨16 * ((i 0).val / 512) + 15, hlt⟩ (1 : Fin 2) * 2048 + 2048; rw [e1]; omega

/-- The result array after the run is the specification's function of the arguments. -/
theorem final (c : Dev nD) : (dats m 0 c).arrAt 3 cfg0.N = result m c :=
  (dats m 0 c).arrAt_eq_of_cover 3 (result m c) (fun t hf => flushed_eq m c t hf) cover

/-- The kernel's run, read: every weakly fair execution terminates with the result array at the specification's
    function of the launch contents of the arguments, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ExpertFfn.Final

end
-- ==== Proof.RefSide.lean ====
/-
  The reference program computes the specification function.

  The reference first views the 8192 token rows as eight slabs of 1024 rows (a reshape, which reads row
  `e * 1024 + t` at position `(e, t)`), then takes, slab by slab, the product with the slab's first weight matrix,
  applies the tanh form of GELU entry by entry, takes the product with the slab's second weight matrix, and views
  the eight slabs of 1024 rows as 8192 rows again. Row `r` sits in slab `r / 1024` at position `r % 1024`, and
  `(r / 1024) * 1024 + r % 1024 = r`, so at row `r` and column `d` the result is

    Σ_f gelu (Σ_k x[r, k] · w1[r / 1024, k, f]) · w2[r / 1024, f, d],

  which is the specification. The only algebra is in the activation: the reference cubes `h` as `(h · h) · h`
  where the specification writes `h · (h · h)`; multiplication of extended reals is commutative.
-/
import proofs.«149884_j29678224015412_1_alg».proof.Proof.Gen.ReferenceIdeal.Read
import proofs.«149884_j29678224015412_1_alg».proof.Proof.Spec

noncomputable section

namespace Cert.ExpertFfn.RefSide

open Idealize.ShloMosaic Idealize.ShloMosaic.ValueIdx Cert.ReferenceIdeal Cert.ReferenceIdeal.Read Cert.ExpertFfn

/-- The position of a token row inside its slab. -/
def pos (r : Fin 8192) : Fin 1024 := ⟨r.val % 1024, Nat.mod_lt _ (by decide)⟩

/-! ## The index maps of the two reshapes and the two products, on explicit coordinates -/

/-- Viewing 8192 rows as eight slabs of 1024: entry `(r, d)` is entry `(r / 1024, r % 1024, d)`. -/
theorem idx_out (r : Fin 8192) (d : Fin 2048) : idx_main_v16 (ix2 r d) = ix3 (slab r) (pos r) d :=
  funext fun a => Fin.ext (by
    have hr := r.isLt
    have hd := d.isLt
    match a with
    | ⟨0, _⟩ => show (r.val * 2048 + d.val) / 2097152 = r.val / 1024; omega
    | ⟨1, _⟩ => show (r.val * 2048 + d.val) / 2048 % 1024 = r.val % 1024; omega
    | ⟨2, _⟩ => show (r.val * 2048 + d.val) % 2048 = d.val; omega)

/-- Viewing eight slabs of 1024 rows as 8192 rows: entry `(r / 1024, r % 1024, k)` is entry `(r, k)`. -/
theorem idx_in (r : Fin 8192) (k : Fin 2048) : idx_main_v0 (ix3 (slab r) (pos r) k) = ix2 r k :=
  funext fun a => Fin.ext (by
    have hr := r.isLt
    have hk := k.isLt
    match a with
    | ⟨0, _⟩ => show ((r.val / 1024 * 1024 + r.val % 1024) * 2048 + k.val) / 2048 = r.val; omega
    | ⟨1, _⟩ => show ((r.val / 1024 * 1024 + r.val % 1024) * 2048 + k.val) % 2048 = k.val; omega)

/-- The second product reads its left factor at `(e, t, f)`. -/
theorem lidx_down (e : Fin 8) (t : Fin 1024) (d : Fin 2048) (f : Fin 8192) :
    lidx_main_v15 (ix3 e t d) f = ix3 e t f :=
  funext fun a => by match a with | ⟨0, _⟩ => rfl | ⟨1, _⟩ => rfl | ⟨2, _⟩ => rfl

/-- The second product reads its right factor at `(e, f, d)`. -/
theorem ridx_down (e : Fin 8) (t : Fin 1024) (d : Fin 2048) (f : Fin 8192) :
    ridx_main_v15 (ix3 e t d) f = ix3 e f d :=
  funext fun a => by match a with | ⟨0, _⟩ => rfl | ⟨1, _⟩ => rfl | ⟨2, _⟩ => rfl

/-- The first product reads its left factor at `(e, t, k)`. -/
theorem lidx_up (e : Fin 8) (t : Fin 1024) (f : Fin 8192) (k : Fin 2048) :
    lidx_main_v1 (ix3 e t f) k = ix3 e t k :=
  funext fun a => by match a with | ⟨0, _⟩ => rfl | ⟨1, _⟩ => rfl | ⟨2, _⟩ => rfl

/-- The first product reads its right factor at `(e, k, f)`. -/
theorem ridx_up (e : Fin 8) (t : Fin 1024) (f : Fin 8192) (k : Fin 2048) :
    ridx_main_v1 (ix3 e t f) k = ix3 e k f :=
  funext fun a => by match a with | ⟨0, _⟩ => rfl | ⟨1, _⟩ => rfl | ⟨2, _⟩ => rfl

/-! ## The two stages between the products -/

/-- The first product at row `r`'s place in its slab is the specification's hidden value of row `r`. -/
theorem up_eq_hidden (x0 : (⟨S8192x2048, .f32⟩ : BufTy).Contents (Elt Ideal))
    (x2 : (⟨S8x2048x8192, .f32⟩ : BufTy).Contents (Elt Ideal)) (r : Fin 8192) (f : Fin 8192) :
    val_main_v1 (F := Ideal) x0 x2 (ix3 (slab r) (pos r) f) = hidden x0 x2 r f := by
  rw [val_main_v1_apply]
  unfold hidden
  refine Finset.sum_congr rfl fun k _ => ?_
  rw [val_main_v0_apply, lidx_up, ridx_up, idx_in]

/-- Entry by entry, the activation stage is `gelu` of the first product: the constants are broadcast scalars, and
    the cube is spelled `(h · h) · h`. -/
theorem act_eq_gelu (x0 : (⟨S8192x2048, .f32⟩ : BufTy).Contents (Elt Ideal))
    (x2 : (⟨S8x2048x8192, .f32⟩ : BufTy).Contents (Elt Ideal)) (j : S8x1024x8192.Idx) :
    val_main_v14 (F := Ideal) x0 x2 j = gelu (val_main_v1 (F := Ideal) x0 x2 j) := by
  rw [val_main_v14_apply, val_main_v13_apply, val_main_v12_apply, val_main_cst_2_apply, val_main_v11_apply,
    val_main_v10_apply, val_main_cst_1_apply, val_main_v9_apply, val_main_v8_apply, val_main_v7_apply,
    val_main_cst_0_apply, val_main_v6_apply, val_main_v5_apply, val_main_v4_apply, val_main_cst_apply,
    val_main_v3_apply, val_main_v2_apply]
  exact gelu_cube_left _

/-! ## The whole reference -/

/-- The reference program's result, read on the extended reals, is the specification function of its arguments. -/
theorem ref_eq_G (x0 : (⟨Cert.ReferenceIdeal.S8192x2048, .f32⟩ : BufTy).Contents (Elt Ideal))
    (x2 : (⟨Cert.ReferenceIdeal.S8x2048x8192, .f32⟩ : BufTy).Contents (Elt Ideal))
    (x3 : (⟨Cert.ReferenceIdeal.S8x8192x2048, .f32⟩ : BufTy).Contents (Elt Ideal)) :
    Cert.ReferenceIdeal.Read.val_main_v16 (F := Ideal) x0 x2 x3 = Cert.ExpertFfn.G x0 x2 x3 := by
  funext i
  obtain ⟨r, d, rfl⟩ : ∃ (r : Fin 8192) (d : Fin 2048), i = ix2 r d := ⟨i 0, i 1, eq_ix2 i⟩
  rw [val_main_v16_apply, val_main_v15_apply, G_apply]
  refine Finset.sum_congr rfl fun f _ => ?_
  rw [idx_out, lidx_down, ridx_down, act_eq_gelu, up_eq_hidden]

end Cert.ExpertFfn.RefSide

end
-- ==== Proof.lean ====
/-
  The certificate of a grouped expert feed-forward kernel against its plain reference.

  Both programs take 8192 token rows of width 2048, sorted by expert into eight slabs of 1024 rows, and send each
  row through its expert's network: an up-projection to 8192 hidden units, the tanh form of GELU, and a
  down-projection back to width 2048 (a fourth argument, the per-expert token counts, is read by neither).

  * The kernel walks a grid of 8 experts × 2 row blocks × 16 hidden tiles. For one block of 512 rows it keeps an
    accumulator over the sixteen tiles: reset at the first, at each tile increased by
    `gelu (x · w₁ tile) · w₂ tile`, copied out after the last. On the extended reals the accumulator after the last
    tile is the sum of the sixteen tile terms, and the sixteen blocks written back tile the result array.
  * The reference reshapes the rows into the eight slabs, takes the two batched products with the whole weight
    matrices around the same activation, and reshapes back.

  Read on the extended reals — every float operation exact, every change of format the identity, `tanh` one function
  on both sides, the four constants the same binary32 words on both sides — the two results are the same function
  of the arguments, entry by entry: a sum over 8192 hidden units is the sum over 16 tiles of the sums over their 512
  units, and `h · (h · h) = (h · h) · h`. Only commutativity and associativity of `+` and `·` are used, so the
  finiteness of the inputs is never opened. The idealization rewrote no operation, so the word-level kernel's
  relation to its idealization has nothing to state.

  The three programs' termination, freedom from faults and unchanged arguments are the generated frame runs (for
  the reference, its generated run with the result dropped).
-/
import proofs.«149884_j29678224015412_1_alg».proof.Defs
import proofs.«149884_j29678224015412_1_alg».proof.Proof.Gen.Kernel
import proofs.«149884_j29678224015412_1_alg».proof.Proof.Gen.Kernel.Skeleton
import proofs.«149884_j29678224015412_1_alg».proof.Proof.Gen.Kernel.Launch
import proofs.«149884_j29678224015412_1_alg».proof.Proof.Gen.Kernel.Points
import proofs.«149884_j29678224015412_1_alg».proof.Proof.Gen.Kernel.Frame
import proofs.«149884_j29678224015412_1_alg».proof.Proof.Gen.KernelIdeal
import proofs.«149884_j29678224015412_1_alg».proof.Proof.Gen.KernelIdeal.Skeleton
import proofs.«149884_j29678224015412_1_alg».proof.Proof.Gen.KernelIdeal.Launch
import proofs.«149884_j29678224015412_1_alg».proof.Proof.Gen.KernelIdeal.Points
import proofs.«149884_j29678224015412_1_alg».proof.Proof.Gen.KernelIdeal.Frame
import proofs.«149884_j29678224015412_1_alg».proof.Proof.Gen.ReferenceIdeal
import proofs.«149884_j29678224015412_1_alg».proof.Proof.Gen.Pre_finite_inputs
import proofs.«149884_j29678224015412_1_alg».proof.Proof.Gen.KernelIdeal.Value
import proofs.«149884_j29678224015412_1_alg».proof.Proof.Gen.ReferenceIdeal.Run
import proofs.«149884_j29678224015412_1_alg».proof.Proof.Gen.ReferenceIdeal.Read
import proofs.«149884_j29678224015412_1_alg».proof.Proof.Final
import proofs.«149884_j29678224015412_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals, from memories that agree on the arguments, the kernel's result array and the reference's
    both end at the specification's function of those arguments. -/
theorem algebraic : Cert.algebraic_KernelIdeal_ReferenceIdeal := by
  intro m ρ m' ρ' _ hagree
  refine ⟨fun c => Cert.ExpertFfn.Final.result m c, Cert.ExpertFfn.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ExpertFfn.RefSide.ref_eq_G, (hagree c).1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
